-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v10) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x4096x1024 : Shape := ⟨3, ![8, 4096, 1024]⟩
abbrev S10 : Shape := ⟨1, ![10]⟩
abbrev S1024x10 : Shape := ⟨2, ![1024, 10]⟩
abbrev S1024 : Shape := ⟨1, ![1024]⟩
abbrev S1024x1024 : Shape := ⟨2, ![1024, 1024]⟩
abbrev S_ : Shape := ⟨0, ![]⟩

class Facts : Prop where
  bcast_S_S8x4096x1024 : S_.BroadcastsInDim S8x4096x1024 (![] : Fin 0 → Fin S8x4096x1024.rank)
  reducesTo_S8x4096x1024_S_d0_1_2 : S8x4096x1024.ReducesTo [0, 1, 2] S_
  h_S_ : 0 < S_.numel
  bcast_S_S10 : S_.BroadcastsInDim S10 (![] : Fin 0 → Fin S10.rank)
  reducesTo_S10_S_d0 : S10.ReducesTo [0] S_
  bcast_S_S1024x10 : S_.BroadcastsInDim S1024x10 (![] : Fin 0 → Fin S1024x10.rank)
  reducesTo_S1024x10_S_d0_1 : S1024x10.ReducesTo [0, 1] S_
  bcast_S_S1024 : S_.BroadcastsInDim S1024 (![] : Fin 0 → Fin S1024.rank)
  reducesTo_S1024_S_d0 : S1024.ReducesTo [0] S_
  bcast_S_S1024x1024 : S_.BroadcastsInDim S1024x1024 (![] : Fin 0 → Fin S1024x1024.rank)
  reducesTo_S1024x1024_S_d0_1 : S1024x1024.ReducesTo [0, 1] S_

variable [Facts]

def fn_part1 {F : FTy → Type} [FloatOps F] (main_arg4 : FVec F S1024x1024 .f32) (main_arg5 : FVec F S1024 .f32) (main_v13 : IVec S_ 1) (main_v16 : IVec S1024 1) : IVec S_ 1 :=
  let main_c_5 : IVec S_ 1 := constantI S_ 1 1#1
  let main_v17 : IVec S_ 1 := (fun x v => Host.reduce IntOp.andi x v reducesTo_S1024_S_d0 h_S_) main_v16 main_c_5
  let main_v18 : IVec S_ 1 := andi main_v13 main_v17
  let main_v19 : FVec F S1024x1024 .f32 := Host.absf main_arg4
  let main_cst_6 : FVec F S_ .f32 := constant S_ .f32 0x7F800000#32
  let main_v20 : FVec F S1024x1024 .f32 := broadcastInDim S1024x1024 ![] bcast_S_S1024x1024 main_cst_6
  let main_v21 : IVec S1024x1024 1 := cmpf .olt main_v19 main_v20
  let main_c_7 : IVec S_ 1 := constantI S_ 1 1#1
  let main_v22 : IVec S_ 1 := (fun x v => Host.reduce IntOp.andi x v reducesTo_S1024x1024_S_d0_1 h_S_) main_v21 main_c_7
  let main_v23 : IVec S_ 1 := andi main_v18 main_v22
  let main_v24 : FVec F S1024 .f32 := Host.absf main_arg5
  let main_cst_8 : FVec F S_ .f32 := constant S_ .f32 0x7F800000#32
  let main_v25 : FVec F S1024 .f32 := broadcastInDim S1024 ![] bcast_S_S1024 main_cst_8
  let main_v26 : IVec S1024 1 := cmpf .olt main_v24 main_v25
  let main_c_9 : IVec S_ 1 := constantI S_ 1 1#1
  let main_v27 : IVec S_ 1 := (fun x v => Host.reduce IntOp.andi x v reducesTo_S1024_S_d0 h_S_) main_v26 main_c_9
  let main_v28 : IVec S_ 1 := andi main_v23 main_v27
  main_v28

def fn {F : FTy → Type} [FloatOps F] (main_arg0 : FVec F S8x4096x1024 .f32) (main_arg1 : FVec F S10 .f32) (main_arg2 : FVec F S1024x10 .f32) (main_arg3 : FVec F S1024 .f32) (main_arg4 : FVec F S1024x1024 .f32) (main_arg5 : FVec F S1024 .f32) : IVec S_ 1 :=
  let main_v0 : FVec F S8x4096x1024 .f32 := Host.absf main_arg0
  let main_cst : FVec F S_ .f32 := constant S_ .f32 0x7F800000#32
  let main_v1 : FVec F S8x4096x1024 .f32 := broadcastInDim S8x4096x1024 ![] bcast_S_S8x4096x1024 main_cst
  let main_v2 : IVec S8x4096x1024 1 := cmpf .olt main_v0 main_v1
  let main_c : IVec S_ 1 := constantI S_ 1 1#1
  let main_v3 : IVec S_ 1 := (fun x v => Host.reduce IntOp.andi x v reducesTo_S8x4096x1024_S_d0_1_2 h_S_) main_v2 main_c
  let main_v4 : FVec F S10 .f32 := Host.absf main_arg1
  let main_cst_0 : FVec F S_ .f32 := constant S_ .f32 0x7F800000#32
  let main_v5 : FVec F S10 .f32 := broadcastInDim S10 ![] bcast_S_S10 main_cst_0
  let main_v6 : IVec S10 1 := cmpf .olt main_v4 main_v5
  let main_c_1 : IVec S_ 1 := constantI S_ 1 1#1
  let main_v7 : IVec S_ 1 := (fun x v => Host.reduce IntOp.andi x v reducesTo_S10_S_d0 h_S_) main_v6 main_c_1
  let main_v8 : IVec S_ 1 := andi main_v3 main_v7
  let main_v9 : FVec F S1024x10 .f32 := Host.absf main_arg2
  let main_cst_2 : FVec F S_ .f32 := constant S_ .f32 0x7F800000#32
  let main_v10 : FVec F S1024x10 .f32 := broadcastInDim S1024x10 ![] bcast_S_S1024x10 main_cst_2
  let main_v11 : IVec S1024x10 1 := cmpf .olt main_v9 main_v10
  let main_c_3 : IVec S_ 1 := constantI S_ 1 1#1
  let main_v12 : IVec S_ 1 := (fun x v => Host.reduce IntOp.andi x v reducesTo_S1024x10_S_d0_1 h_S_) main_v11 main_c_3
  let main_v13 : IVec S_ 1 := andi main_v8 main_v12
  let main_v14 : FVec F S1024 .f32 := Host.absf main_arg3
  let main_cst_4 : FVec F S_ .f32 := constant S_ .f32 0x7F800000#32
  let main_v15 : FVec F S1024 .f32 := broadcastInDim S1024 ![] bcast_S_S1024 main_cst_4
  let main_v16 : IVec S1024 1 := cmpf .olt main_v14 main_v15
  fn_part1 (F := F) main_arg4 main_arg5 main_v13 main_v16
-- ==== Kernel.lean ====
abbrev S8x4096x1024 : Shape := ⟨3, ![8, 4096, 1024]⟩
abbrev S10 : Shape := ⟨1, ![10]⟩
abbrev S1024x10 : Shape := ⟨2, ![1024, 10]⟩
abbrev S1024 : Shape := ⟨1, ![1024]⟩
abbrev S1024x1024 : Shape := ⟨2, ![1024, 1024]⟩
abbrev S8x4096x10 : Shape := ⟨3, ![8, 4096, 10]⟩
abbrev S32768x10 : Shape := ⟨2, ![32768, 10]⟩
abbrev S10x1024 : Shape := ⟨2, ![10, 1024]⟩
abbrev S1x1024 : Shape := ⟨2, ![1, 1024]⟩
abbrev S32768x1024 : Shape := ⟨2, ![32768, 1024]⟩

abbrev nBuf : Space → Nat
  | .hbm => 14
  | .vmem => 8
  | .smem => 0
  | _ => 0

abbrev bufTy : (tb : Table) → Fin (tcTables nBuf tb) → BufTy
  | .hbm, ⟨0, _⟩ => ⟨S8x4096x1024, .f32⟩
  | .hbm, ⟨1, _⟩ => ⟨S10, .f32⟩
  | .hbm, ⟨2, _⟩ => ⟨S1024x10, .f32⟩
  | .hbm, ⟨3, _⟩ => ⟨S1024, .f32⟩
  | .hbm, ⟨4, _⟩ => ⟨S1024x1024, .f32⟩
  | .hbm, ⟨5, _⟩ => ⟨S1024, .f32⟩
  | .hbm, ⟨6, _⟩ => ⟨S8x4096x10, .f32⟩
  | .hbm, ⟨7, _⟩ => ⟨S32768x10, .f32⟩
  | .hbm, ⟨8, _⟩ => ⟨S10x1024, .f32⟩
  | .hbm, ⟨9, _⟩ => ⟨S1024x1024, .f32⟩
  | .hbm, ⟨10, _⟩ => ⟨S1x1024, .f32⟩
  | .hbm, ⟨11, _⟩ => ⟨S1x1024, .f32⟩
  | .hbm, ⟨12, _⟩ => ⟨S32768x1024, .f32⟩
  | .hbm, ⟨13, _⟩ => ⟨S8x4096x1024, .f32⟩
  | .local _ .vmem, ⟨0, _⟩ => ⟨S1024x10, .f32⟩
  | .local _ .vmem, ⟨1, _⟩ => ⟨S1024x10, .f32⟩
  | .local _ .vmem, ⟨2, _⟩ => ⟨S10x1024, .f32⟩
  | .local _ .vmem, ⟨3, _⟩ => ⟨S1x1024, .f32⟩
  | .local _ .vmem, ⟨4, _⟩ => ⟨S1024x1024, .f32⟩
  | .local _ .vmem, ⟨5, _⟩ => ⟨S1x1024, .f32⟩
  | .local _ .vmem, ⟨6, _⟩ => ⟨S1024x1024, .f32⟩
  | .local _ .vmem, ⟨7, _⟩ => ⟨S1024x1024, .f32⟩
  | _, _ => ⟨S8x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x10 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S10x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  slices_S8x4096x1024_S8x4096x10_0_0_0 : S8x4096x1024.Slices ![0, 0, 0] S8x4096x10
  shapeCasts_S8x4096x10_S32768x10 : S8x4096x10.ShapeCasts S32768x10
  transposes_S1024x10_S10x1024_1_0 : S1024x10.Transposes [1, 0] S10x1024
  transposes_S1024x1024_S1024x1024_1_0 : S1024x1024.Transposes [1, 0] S1024x1024
  shapeCasts_S1024_S1x1024 : S1024.ShapeCasts S1x1024
  inb_S1024x10_S1024x10_0_0 : ∀ a, (![0, 0] : Fin 2 → Nat) a + S1024x10.size a ≤ S1024x10.size a
  h_S1024x10 : 0 < S1024x10.numel
  shapeCasts_S1024x10_S1024x10 : S1024x10.ShapeCasts S1024x10
  bitsLt_bf16_f32 : FTy.bits .bf16 < FTy.bits .f32
  inb_S10x1024_S10x1024_0_0 : ∀ a, (![0, 0] : Fin 2 → Nat) a + S10x1024.size a ≤ S10x1024.size a
  h_S10x1024 : 0 < S10x1024.numel
  shapeCasts_S10x1024_S10x1024 : S10x1024.ShapeCasts S10x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S1024x1024 : S1x1024.Broadcasts S1024x1024
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  shapeCasts_S32768x1024_S8x4096x1024 : S32768x1024.ShapeCasts S8x4096x1024
  dot_S1024x10_S10x1024_S1024x1024_1_0_0_1_n_n_wf : DotDims.WF S1024x10 S10x1024 S1024x1024 [1] [0] [0] [1] [] []
  dot_S1024x1024_S1024x1024_S1024x1024_1_0_0_1_n_n_wf : DotDims.WF S1024x1024 S1024x1024 S1024x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x10.size a ≤ S32768x10.size a
  hwx0_0 : ∀ i : grid0.Coords, EltTy.bits .f32 = 32 ∨ (Rect.block (s := S32768x10) S1024x10.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S10x1024.size a ≤ S10x1024.size a
  hwx0_1 : ∀ i : grid0.Coords, EltTy.bits .f32 = 32 ∨ (Rect.block (s := S10x1024) S10x1024.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x1024.size a ≤ S1x1024.size a
  hwx0_2 : ∀ i : grid0.Coords, EltTy.bits .f32 = 32 ∨ (Rect.block (s := S1x1024) S1x1024.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1024x1024.size a ≤ S1024x1024.size a
  hwx0_3 : ∀ i : grid0.Coords, EltTy.bits .f32 = 32 ∨ (Rect.block (s := S1024x1024) S1024x1024.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x1024.size a ≤ S1x1024.size a
  hwx0_4 : ∀ i : grid0.Coords, EltTy.bits .f32 = 32 ∨ (Rect.block (s := S1x1024) S1x1024.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1024x1024.size a ≤ S32768x1024.size a
  hwx0_5 : ∀ i : grid0.Coords, EltTy.bits .f32 = 32 ∨ (Rect.block (s := S32768x1024) S1024x1024.size (cc0_transform_5 i) (hinb0_5 i)).WholeWords (EltTy.packing .f32)

variable [Facts₀]

def dot_S1024x10_S10x1024_S1024x1024_1_0_0_1_n_n : DotDims S1024x10 S10x1024 S1024x1024 where
  lhsContracting := [1]
  rhsContracting := [0]
  lhsNonContracting := [0]
  rhsNonContracting := [1]
  lhsBatch := []
  rhsBatch := []
  wf := dot_S1024x10_S10x1024_S1024x1024_1_0_0_1_n_n_wf
def dot_S1024x1024_S1024x1024_S1024x1024_1_0_0_1_n_n : DotDims S1024x1024 S1024x1024 S1024x1024 where
  lhsContracting := [1]
  rhsContracting := [0]
  lhsNonContracting := [0]
  rhsNonContracting := [1]
  lhsBatch := []
  rhsBatch := []
  wf := dot_S1024x1024_S1024x1024_S1024x1024_1_0_0_1_n_n_wf

abbrev win0_0 : Pipeline.Window sig grid0 :=
  Pipeline.Window.ofSpec (Memref.whole main_v1) S1024x10.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v2) S10x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v4) S1x1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v3) S1024x1024.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v5) S1x1024.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v6) S1024x1024.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S8x4096x1024 : Shape := ⟨3, ![8, 4096, 1024]⟩
abbrev S10 : Shape := ⟨1, ![10]⟩
abbrev S1024x10 : Shape := ⟨2, ![1024, 10]⟩
abbrev S1024 : Shape := ⟨1, ![1024]⟩
abbrev S1024x1024 : Shape := ⟨2, ![1024, 1024]⟩
abbrev S8x4096x10 : Shape := ⟨3, ![8, 4096, 10]⟩
abbrev S1x1x1024 : Shape := ⟨3, ![1, 1, 1024]⟩
abbrev S_ : Shape := ⟨0, ![]⟩

abbrev nBuf : Space → Nat
  | .hbm => 19
  | .vmem => 0
  | .smem => 0
  | _ => 0

abbrev bufTy : (tb : Table) → Fin (tcTables nBuf tb) → BufTy
  | .hbm, ⟨0, _⟩ => ⟨S8x4096x1024, .f32⟩
  | .hbm, ⟨1, _⟩ => ⟨S10, .f32⟩
  | .hbm, ⟨2, _⟩ => ⟨S1024x10, .f32⟩
  | .hbm, ⟨3, _⟩ => ⟨S1024, .f32⟩
  | .hbm, ⟨4, _⟩ => ⟨S1024x1024, .f32⟩
  | .hbm, ⟨5, _⟩ => ⟨S1024, .f32⟩
  | .hbm, ⟨6, _⟩ => ⟨S8x4096x10, .f32⟩
  | .hbm, ⟨7, _⟩ => ⟨S8x4096x10, .f32⟩
  | .hbm, ⟨8, _⟩ => ⟨S8x4096x1024, .f32⟩
  | .hbm, ⟨9, _⟩ => ⟨S1x1x1024, .f32⟩
  | .hbm, ⟨10, _⟩ => ⟨S8x4096x1024, .f32⟩
  | .hbm, ⟨11, _⟩ => ⟨S8x4096x1024, .f32⟩
  | .hbm, ⟨12, _⟩ => ⟨S_, .f32⟩
  | .hbm, ⟨13, _⟩ => ⟨S8x4096x1024, .f32⟩
  | .hbm, ⟨14, _⟩ => ⟨S8x4096x1024, .f32⟩
  | .hbm, ⟨15, _⟩ => ⟨S8x4096x1024, .f32⟩
  | .hbm, ⟨16, _⟩ => ⟨S1x1x1024, .f32⟩
  | .hbm, ⟨17, _⟩ => ⟨S8x4096x1024, .f32⟩
  | .hbm, ⟨18, _⟩ => ⟨S8x4096x1024, .f32⟩
  | _, _ => ⟨S8x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_call0_cst : Ref sig .tc := ⟨.hbm, 12, rfl⟩
abbrev main_call0_v0 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩

abbrev nD : Nat := 1
abbrev τ : Topo := Topo.v7x

variable {F : FTy → Type} [FloatOps F]

class Facts₀ : Prop where
  slices_S8x4096x1024_S8x4096x10_0_0_0 : S8x4096x1024.Slices ![0, 0, 0] S8x4096x10
  bcast_S1024_S1x1x1024_2 : S1024.BroadcastsInDim S1x1x1024 (![2] : Fin 1 → Fin S1x1x1024.rank)
  bcast_S1x1x1024_S8x4096x1024_0_1_2 : S1x1x1024.BroadcastsInDim S8x4096x1024 (![0, 1, 2] : Fin 3 → Fin S8x4096x1024.rank)
  bcast_S_S8x4096x1024 : S_.BroadcastsInDim S8x4096x1024 (![] : Fin 0 → Fin S8x4096x1024.rank)
  dot_S8x4096x10_S1024x10_S8x4096x1024_2_1_01_0_n_n_wf : DotDims.WF S8x4096x10 S1024x10 S8x4096x1024 [2] [1] [0, 1] [0] [] []
  dot_S8x4096x1024_S1024x1024_S8x4096x1024_2_1_01_0_n_n_wf : DotDims.WF S8x4096x1024 S1024x1024 S8x4096x1024 [2] [1] [0, 1] [0] [] []

variable [Facts₀]

def dot_S8x4096x10_S1024x10_S8x4096x1024_2_1_01_0_n_n : DotDims S8x4096x10 S1024x10 S8x4096x1024 where
  lhsContracting := [2]
  rhsContracting := [1]
  lhsNonContracting := [0, 1]
  rhsNonContracting := [0]
  lhsBatch := []
  rhsBatch := []
  wf := dot_S8x4096x10_S1024x10_S8x4096x1024_2_1_01_0_n_n_wf
def dot_S8x4096x1024_S1024x1024_S8x4096x1024_2_1_01_0_n_n : DotDims S8x4096x1024 S1024x1024 S8x4096x1024 where
  lhsContracting := [2]
  rhsContracting := [1]
  lhsNonContracting := [0, 1]
  rhsNonContracting := [0]
  lhsBatch := []
  rhsBatch := []
  wf := dot_S8x4096x1024_S1024x1024_S8x4096x1024_2_1_01_0_n_n_wf

class Facts : Prop extends Facts₀ where

variable [Facts]
-- ==== Proof.MlpSpec.lean ====
/-
  The function both programs compute, on the extended reals.

  A token is a pair (b, s) of a batch index and a position. Of its 1024 input columns only the first ten are read:
  feature q of the token is cos of column q. The token then passes a two-layer perceptron,

      hidden(b, s, f) = max( (∑ q < 10, cos x(b, s, q) · W1(f, q)) + b1(f), 0 )          f < 1024
      out(b, s, e)    = (∑ f < 1024, hidden(b, s, f) · W2(e, f)) + b2(e)                  e < 1024

  with both weight matrices stored output-major (row f of W1 holds the ten weights of hidden unit f, row e of W2 the 1024
  weights of output e). The zero of the rectifier is kept as the float word both programs print for it.
-/
import Idealize.ShloMosaic.PureOps.Ideal
import Idealize.ShloMosaic.Lib.ValueIdx

noncomputable section

open scoped BigOperators

namespace Cert.Mlp

open Idealize.ShloMosaic Idealize.ShloMosaic.ValueIdx

/-- A feature index, below ten, as a column of the 1024 columns of the input. -/
def col (q : Fin 10) : Fin 1024 := ⟨q.val, by have := q.isLt; omega⟩

/-- Feature q of token (b, s): the cosine of the token's column q. -/
def feature (x : (⟨3, ![8, 4096, 1024]⟩ : Shape).Idx → EReal) (b : Fin 8) (s : Fin 4096) (q : Fin 10) : EReal :=
  Ideal.cos (x (ix3 b s (col q)))

/-- Hidden unit f of token (b, s): the rectified affine form of the token's ten features. -/
def hidden (x : (⟨3, ![8, 4096, 1024]⟩ : Shape).Idx → EReal) (W1 : (⟨2, ![1024, 10]⟩ : Shape).Idx → EReal)
    (b1 : (⟨1, ![1024]⟩ : Shape).Idx → EReal) (b : Fin 8) (s : Fin 4096) (f : Fin 1024) : EReal :=
  max ((∑ q : Fin 10, feature x b s q * W1 (ix2 f q)) + b1 (ix1 f)) (Ideal.ofBits .f32 0x00000000#32)

/-- Output e of token (b, s): the affine form of the token's 1024 hidden units. -/
def out (x : (⟨3, ![8, 4096, 1024]⟩ : Shape).Idx → EReal) (W1 : (⟨2, ![1024, 10]⟩ : Shape).Idx → EReal)
    (b1 : (⟨1, ![1024]⟩ : Shape).Idx → EReal) (W2 : (⟨2, ![1024, 1024]⟩ : Shape).Idx → EReal)
    (b2 : (⟨1, ![1024]⟩ : Shape).Idx → EReal) (b : Fin 8) (s : Fin 4096) (e : Fin 1024) : EReal :=
  (∑ f : Fin 1024, hidden x W1 b1 b s f * W2 (ix2 e f)) + b2 (ix1 e)

/-- The whole result array, indexed (b, s, e). -/
def outArr (x : (⟨3, ![8, 4096, 1024]⟩ : Shape).Idx → EReal) (W1 : (⟨2, ![1024, 10]⟩ : Shape).Idx → EReal)
    (b1 : (⟨1, ![1024]⟩ : Shape).Idx → EReal) (W2 : (⟨2, ![1024, 1024]⟩ : Shape).Idx → EReal)
    (b2 : (⟨1, ![1024]⟩ : Shape).Idx → EReal) : (⟨3, ![8, 4096, 1024]⟩ : Shape).Idx → EReal :=
  fun i => out x W1 b1 W2 b2 (i 0) (i 1) (i 2)

end Cert.Mlp

end
-- ==== Proof.RefValue.lean ====
/-
  The reference computes the perceptron of MlpSpec.

  Read one operation at a time at the index (b, s, e): the outer sum is the second contraction, over the hidden axis,
  of the rectified first layer against row e of W2; inside it the first contraction runs over the ten sliced columns
  of the token, each passed through the cosine, against row f of W1; each bias vector is read at its own coordinate.
-/
import proofs.«161877_j65481071409132_1_alg».proof.Proof.Gen.ReferenceIdeal.Read
import proofs.«161877_j65481071409132_1_alg».proof.Proof.MlpSpec

noncomputable section

open scoped BigOperators

namespace Cert.ReferenceIdeal.RefValue

open Cert.ReferenceIdeal Cert.ReferenceIdeal.Read Idealize.ShloMosaic Idealize.ShloMosaic.ValueIdx

/-- The rectified first layer of the reference at (b, s, f) is hidden unit f of token (b, s). -/
theorem hidden_apply (x0 : (⟨S8x4096x1024, .f32⟩ : BufTy).Contents (Elt Ideal)) (x2 : (⟨S1024x10, .f32⟩ : BufTy).Contents (Elt Ideal))
    (x3 : (⟨S1024, .f32⟩ : BufTy).Contents (Elt Ideal)) (b : Fin 8) (s : Fin 4096) (f : Fin 1024) :
    val_main_v6 (F := Ideal) x0 x2 x3 (ix3 b s f) = Cert.Mlp.hidden x0 x2 x3 b s f := by
  rw [val_main_v6_apply, val_main_v5_apply, val_main_v2_apply, val_main_v4_apply, val_main_v3_apply,
    val_main_call0_v0_apply, val_main_call0_cst_apply]
  unfold Cert.Mlp.hidden
  have e3 : idx_main_v3 (idx_main_v4 (ix3 b s f)) = ix1 f :=
    funext fun a => Fin.ext (by match a with | ⟨0, _⟩ => rfl)
  rw [e3]
  show max ((∑ q : Fin 10, _) + x3 (ix1 f)) (Ideal.ofBits .f32 0x00000000#32) = _
  refine congrArg (fun z => max (z + x3 (ix1 f)) (Ideal.ofBits .f32 0x00000000#32)) (Finset.sum_congr rfl fun q _ => ?_)
  rw [val_main_v1_apply, val_main_v0_apply]
  unfold Cert.Mlp.feature
  have e0 : idx_main_v0 (lidx_main_v2 (ix3 b s f) q) = ix3 b s (Cert.Mlp.col q) :=
    funext fun a => Fin.ext (by match a with | ⟨0, _⟩ => rfl | ⟨1, _⟩ => rfl | ⟨2, _⟩ => rfl)
  have e2 : ridx_main_v2 (ix3 b s f) q = ix2 f q :=
    funext fun a => Fin.ext (by match a with | ⟨0, _⟩ => rfl | ⟨1, _⟩ => rfl)
  rw [e0, e2]
  rfl

/-- The reference's result at (b, s, e) is output e of token (b, s). -/
theorem ref_apply (x0 : (⟨S8x4096x1024, .f32⟩ : BufTy).Contents (Elt Ideal)) (x2 : (⟨S1024x10, .f32⟩ : BufTy).Contents (Elt Ideal))
    (x3 : (⟨S1024, .f32⟩ : BufTy).Contents (Elt Ideal)) (x4 : (⟨S1024x1024, .f32⟩ : BufTy).Contents (Elt Ideal))
    (x5 : (⟨S1024, .f32⟩ : BufTy).Contents (Elt Ideal)) (b : Fin 8) (s : Fin 4096) (e : Fin 1024) :
    val_main_v10 (F := Ideal) x0 x2 x3 x4 x5 (ix3 b s e) = Cert.Mlp.out x0 x2 x3 x4 x5 b s e := by
  rw [val_main_v10_apply, val_main_v7_apply, val_main_v9_apply, val_main_v8_apply]
  unfold Cert.Mlp.out
  have e5 : idx_main_v8 (idx_main_v9 (ix3 b s e)) = ix1 e :=
    funext fun a => Fin.ext (by match a with | ⟨0, _⟩ => rfl)
  rw [e5]
  show (∑ k : Fin 1024, _) + x5 (ix1 e) = _
  refine congrArg (· + x5 (ix1 e)) (Finset.sum_congr rfl fun k _ => ?_)
  have el : lidx_main_v7 (ix3 b s e) k = ix3 b s k :=
    funext fun a => Fin.ext (by match a with | ⟨0, _⟩ => rfl | ⟨1, _⟩ => rfl | ⟨2, _⟩ => rfl)
  have er : ridx_main_v7 (ix3 b s e) k = ix2 e k :=
    funext fun a => Fin.ext (by match a with | ⟨0, _⟩ => rfl | ⟨1, _⟩ => rfl)
  rw [el, er, hidden_apply]

/-- The reference's result array is the perceptron's. -/
theorem ref_eq (x0 : (⟨S8x4096x1024, .f32⟩ : BufTy).Contents (Elt Ideal)) (x2 : (⟨S1024x10, .f32⟩ : BufTy).Contents (Elt Ideal))
    (x3 : (⟨S1024, .f32⟩ : BufTy).Contents (Elt Ideal)) (x4 : (⟨S1024x1024, .f32⟩ : BufTy).Contents (Elt Ideal))
    (x5 : (⟨S1024, .f32⟩ : BufTy).Contents (Elt Ideal)) :
    val_main_v10 (F := Ideal) x0 x2 x3 x4 x5 = Cert.Mlp.outArr x0 x2 x3 x4 x5 := by
  funext i
  obtain ⟨b, s, e, rfl⟩ : ∃ (b : Fin 8) (s : Fin 4096) (e : Fin 1024), i = ix3 b s e := ⟨i 0, i 1, i 2, eq_ix3 i⟩
  exact ref_apply x0 x2 x3 x4 x5 b s e

end Cert.ReferenceIdeal.RefValue

end
-- ==== Proof.LibRowGatherScatter.lean ====
/-
  Rows gathered, rows scattered and added, and a matrix product, each read at one element.

  A graph layer moves whole rows: edge `e` reads the row of its source node out of an array `[N, C]` (a gather with one
  start index per edge), and the rows of all edges that end in node `p` are added into row `p` of another array (a
  scatter with an `add` body). This file reads both operations, at the dimension numbers such a layer has, at one
  element `(e, c)` resp. `(p, c)`:

    • the gathered element `(e, c)` is the operand at `(rowOf idx e, c)`, where `rowOf idx e` is edge `e`'s index word read
      as a signed integer and clamped into `[0, N − 1]`;
    • the scattered-and-added element `(p, c)` is the operand's plus the sum, over the edges `e` whose index word read as a
      signed integer is `p` (`edgesInto idx p`), of the update at `(e, c)`; an index word outside `[0, N − 1]` names no node
      and its row is dropped.

  Neither the row `rowOf idx e` nor the edge set `edgesInto idx p` depends on the row width `C`: the same edges feed node
  `p` whether rows of width 3 or of width 32 are moved. The file also reads the product of an `[N, K]` by a `[K, M]`
  matrix at `(p, j)` as the sum over `k` of the products, and the three broadcasts such a layer uses (a scalar to any
  shape, a vector `[E]` to a column `[E, 1]`, a column `[E, 1]` to `[E, C]`) at one element.

  Everything is stated for arbitrary extents `N`, `E`, `C`, `K`, `M`; the dimension-number records are written out with
  their well-formedness condition as a parameter, so a record with the same lists over literal shapes is one of these
  by unfolding.
-/
import Idealize.ShloMosaic.Lib.ValueIdx
import Idealize.ShloMosaic.PureOps.Ideal.Laws
import Idealize.ShloMosaic.Lib.Pipeline.Value

noncomputable section

open scoped BigOperators

namespace Cert.LibRowGatherScatter

open Idealize.ShloMosaic Idealize.ShloMosaic.ValueIdx

/-! ## Gathering rows -/

/-- The dimension numbers of a gather of rows: operand `[N, C]`, one start index per edge (`[E, 1]`, the index vector on
    axis 1), result `[E, C]`; the operand's axis 0 is indexed and collapsed, its axis 1 is the result's offset axis 1, a
    slice is one whole row (`[1, C]`). -/
abbrev rowGatherDims (N E C : Nat)
    (wf : GatherDims.WF ⟨2, ![N, C]⟩ ⟨2, ![E, 1]⟩ ⟨2, ![E, C]⟩ [1] [0] [] [0] [] 1 ![1, C]) :
    GatherDims ⟨2, ![N, C]⟩ ⟨2, ![E, 1]⟩ ⟨2, ![E, C]⟩ where
  offsetDims := [1]
  collapsedSliceDims := [0]
  operandBatchingDims := []
  startIndicesBatchingDims := []
  startIndexMap := [0]
  indexVectorDim := 1
  sliceSizes := ![1, C]
  wf := wf

/-- The row edge `e` reads: its index word as a signed integer, clamped into `[0, N − 1]`. It does not depend on the row
    width. -/
def rowOf {N E w : Nat} (hN : 0 < N) (idx : IVec ⟨2, ![E, 1]⟩ w) (e : Fin E) : Fin N :=
  ⟨min (idx (ix2 e 0)).toInt.toNat (N - 1), by omega⟩

/-- On the operand's row axis, the element a gather of rows reads for result element `(e, c)` lies in row `rowOf idx e`:
    the start index is clamped to `N − 1` (a slice is one row), and neither a batching nor an offset coordinate is added
    on a collapsed axis. -/
theorem operandIdx_row {N E C w : Nat} (hN : 0 < N)
    (wf : GatherDims.WF ⟨2, ![N, C]⟩ ⟨2, ![E, 1]⟩ ⟨2, ![E, C]⟩ [1] [0] [] [0] [] 1 ![1, C])
    (idx : IVec ⟨2, ![E, 1]⟩ w) (e : Fin E) (c : Fin C) :
    (((rowGatherDims N E C wf).operandIdx (ix2 e c) idx (0 : Fin 2) : Fin N) : ℕ) = (rowOf hN idx e : ℕ) := by
  show (rowGatherDims N E C wf).start (ix2 e c) idx (0 : Fin 2) + (rowGatherDims N E C wf).batchCoord (ix2 e c) (0 : Fin 2)
    + (rowGatherDims N E C wf).offCoord (ix2 e c) (0 : Fin 2) = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 2) ∈ (rowGatherDims N E C wf).startIndexMap from List.mem_singleton.mpr rfl)]
  have hsi : (rowGatherDims N E C wf).siIdx (ix2 e c) ⟨List.idxOf (0 : Fin 2) (rowGatherDims N E C wf).startIndexMap,
      List.idxOf_lt_length_iff.2 (List.mem_singleton.mpr rfl)⟩ = ix2 e 0 := by
    funext b; refine Fin.ext ?_
    match b with
    | ⟨0, _⟩ => rfl
    | ⟨1, _⟩ => rfl
  rw [hsi]
  rfl

/-- On the operand's column axis, the element a gather of rows reads for result element `(e, c)` is in column `c`: the
    axis is not indexed (start `0`) and the result's offset coordinate is `c`. -/
theorem operandIdx_col {N E C w : Nat}
    (wf : GatherDims.WF ⟨2, ![N, C]⟩ ⟨2, ![E, 1]⟩ ⟨2, ![E, C]⟩ [1] [0] [] [0] [] 1 ![1, C])
    (idx : IVec ⟨2, ![E, 1]⟩ w) (e : Fin E) (c : Fin C) :
    (((rowGatherDims N E C wf).operandIdx (ix2 e c) idx (1 : Fin 2) : Fin C) : ℕ) = (c : ℕ) := by
  show (rowGatherDims N E C wf).start (ix2 e c) idx (1 : Fin 2) + (rowGatherDims N E C wf).batchCoord (ix2 e c) (1 : Fin 2)
    + (rowGatherDims N E C wf).offCoord (ix2 e c) (1 : Fin 2) = _
  rw [GatherDims.batchCoord_eq_zero _ _ _ List.not_mem_nil]
  have hs : (rowGatherDims N E C wf).start (ix2 e c) idx (1 : Fin 2) = 0 := by
    unfold GatherDims.start
    rw [dif_neg (show (1 : Fin 2) ∉ ([0] : List (Fin 2)) by decide)]
  rw [hs]
  have hk : (1 : Fin 2) ∈ (rowGatherDims N E C wf).sKept :=
    (GatherDims.mem_sKept _ _).2 ⟨show (1 : Fin 2) ∉ ([0] : List (Fin 2)) by decide, List.not_mem_nil⟩
  unfold GatherDims.offCoord
  rw [dif_pos hk]
  simp only [Nat.zero_add, Nat.add_zero]
  rfl

/-- A GATHER OF ROWS READ AT `(e, c)`: the operand at row `rowOf idx e`, column `c`. -/
theorem gather_rows_apply {α : Type} {N E C w : Nat} (hN : 0 < N)
    (wf : GatherDims.WF ⟨2, ![N, C]⟩ ⟨2, ![E, 1]⟩ ⟨2, ![E, C]⟩ [1] [0] [] [0] [] 1 ![1, C])
    (x : (⟨2, ![N, C]⟩ : Shape).Idx → α) (idx : IVec ⟨2, ![E, 1]⟩ w) (e : Fin E) (c : Fin C) :
    Host.gather (rowGatherDims N E C wf) x idx (ix2 e c) = x (ix2 (rowOf hN idx e) c) := by
  unfold Host.gather
  congr 1
  funext a
  match a with
  | ⟨0, _⟩ => exact Fin.ext (operandIdx_row hN wf idx e c)
  | ⟨1, _⟩ => exact Fin.ext (operandIdx_col wf idx e c)

/-! ## Scattering rows and adding them -/

/-- The dimension numbers of a scatter of rows: operand `[N, C]`, one scatter index per edge (`[E, 1]`, the index vector
    on axis 1), updates `[E, C]`; the scatter index names the operand's axis 0, which is an inserted window axis, and
    the updates' axis 1 is the window axis, going to the operand's axis 1. -/
abbrev rowScatterDims (N E C : Nat)
    (wf : ScatterDims.WF ⟨2, ![N, C]⟩ ⟨2, ![E, 1]⟩ ⟨2, ![E, C]⟩ [1] [0] [0] 1) :
    ScatterDims ⟨2, ![N, C]⟩ ⟨2, ![E, 1]⟩ ⟨2, ![E, C]⟩ where
  updateWindowDims := [1]
  insertedWindowDims := [0]
  scatterDimsToOperandDims := [0]
  indexVectorDim := 1
  wf := wf

/-- The edges that end in node `p`: those whose index word, read as a signed integer, is `p`. It does not depend on the row
    width. -/
def edgesInto {N E w : Nat} (idx : IVec ⟨2, ![E, 1]⟩ w) (p : Fin N) : Finset (Fin E) :=
  Finset.univ.filter fun e => (idx (ix2 e 0)).toInt = (p.val : ℤ)

section Scatter
variable {N E C w : Nat} (wf : ScatterDims.WF ⟨2, ![N, C]⟩ ⟨2, ![E, 1]⟩ ⟨2, ![E, C]⟩ [1] [0] [0] 1)
  (idx : IVec ⟨2, ![E, 1]⟩ w) (e : Fin E) (c : Fin C)

/-- On the operand's row axis the window of update `(e, c)` starts at edge `e`'s index word, read signed, not clamped. -/
theorem scatter_start_row :
    (rowScatterDims N E C wf).start (ix2 e c) idx (0 : Fin 2) = (idx (ix2 e 0)).toInt := by
  unfold ScatterDims.start
  rw [dif_pos (show (0 : Fin 2) ∈ (rowScatterDims N E C wf).scatterDimsToOperandDims from List.mem_singleton.mpr rfl)]
  have hsi : (rowScatterDims N E C wf).siIdx (ix2 e c)
      ⟨List.idxOf (0 : Fin 2) (rowScatterDims N E C wf).scatterDimsToOperandDims,
        List.idxOf_lt_length_iff.2 (List.mem_singleton.mpr rfl)⟩ = ix2 e 0 := by
    funext b; refine Fin.ext ?_
    match b with
    | ⟨0, _⟩ => rfl
    | ⟨1, _⟩ => rfl
  rw [hsi]

/-- On the operand's column axis, which no scatter index names, the window starts at `0`. -/
theorem scatter_start_col :
    (rowScatterDims N E C wf).start (ix2 e c) idx (1 : Fin 2) = 0 := by
  unfold ScatterDims.start
  rw [dif_neg (show (1 : Fin 2) ∉ ([0] : List (Fin 2)) by decide)]

/-- The row axis is an inserted window axis: the window coordinate there is `0`. -/
theorem scatter_window_row :
    (rowScatterDims N E C wf).window (ix2 e c) (0 : Fin 2) = 0 := by
  unfold ScatterDims.window
  rw [dif_neg (by simp [ScatterDims.sKept, Shape.kept])]

/-- The column axis carries the updates' window axis: the window coordinate there is `c`. -/
theorem scatter_window_col :
    (rowScatterDims N E C wf).window (ix2 e c) (1 : Fin 2) = c.val := by
  unfold ScatterDims.window
  rw [dif_pos (by simp [ScatterDims.sKept, Shape.kept])]
  rfl

/-- Start plus window coordinate on the row axis: edge `e`'s index word, read signed. -/
theorem scatter_sum_row :
    (rowScatterDims N E C wf).start (ix2 e c) idx (0 : Fin 2) + ((rowScatterDims N E C wf).window (ix2 e c) (0 : Fin 2) : ℤ)
      = (idx (ix2 e 0)).toInt := by
  rw [scatter_start_row, scatter_window_row]; simp

/-- Start plus window coordinate on the column axis: `c`. -/
theorem scatter_sum_col :
    (rowScatterDims N E C wf).start (ix2 e c) idx (1 : Fin 2) + ((rowScatterDims N E C wf).window (ix2 e c) (1 : Fin 2) : ℤ)
      = (c.val : ℤ) := by
  rw [scatter_start_col, scatter_window_col]; simp

/-- WHERE AN UPDATE LANDS: update `(e, c)` lands at operand element `(p, c')` exactly when edge `e`'s index word, read
    signed, is `p` and `c = c'`. (An index word that is negative or at least `N` lands nowhere.) -/
theorem resultIdx?_rows_eq_some_iff (p : Fin N) (c' : Fin C) :
    (rowScatterDims N E C wf).resultIdx? (ix2 e c) idx = some (ix2 p c') ↔ ((idx (ix2 e 0)).toInt = (p.val : ℤ) ∧ c = c') := by
  have h0 := scatter_sum_row wf idx e c
  have h1 := scatter_sum_col wf idx e c
  unfold ScatterDims.resultIdx?
  split
  · rename_i h
    rw [Option.some.injEq]
    constructor
    · intro hf
      have e0 : ((rowScatterDims N E C wf).start (ix2 e c) idx (0 : Fin 2)
          + ((rowScatterDims N E C wf).window (ix2 e c) (0 : Fin 2) : ℤ)).toNat = p.val :=
        congrArg Fin.val (congrFun hf (0 : Fin 2))
      have e1 : ((rowScatterDims N E C wf).start (ix2 e c) idx (1 : Fin 2)
          + ((rowScatterDims N E C wf).window (ix2 e c) (1 : Fin 2) : ℤ)).toNat = c'.val :=
        congrArg Fin.val (congrFun hf (1 : Fin 2))
      have hh := (h (0 : Fin 2)).1
      rw [h0] at e0 hh
      rw [h1] at e1
      exact ⟨by omega, Fin.ext (by omega)⟩
    · rintro ⟨ht, rfl⟩
      funext a
      match a with
      | ⟨0, _⟩ =>
        refine Fin.ext ?_
        show ((rowScatterDims N E C wf).start (ix2 e c) idx (0 : Fin 2)
          + ((rowScatterDims N E C wf).window (ix2 e c) (0 : Fin 2) : ℤ)).toNat = p.val
        rw [h0, ht]; simp
      | ⟨1, _⟩ =>
        refine Fin.ext ?_
        show ((rowScatterDims N E C wf).start (ix2 e c) idx (1 : Fin 2)
          + ((rowScatterDims N E C wf).window (ix2 e c) (1 : Fin 2) : ℤ)).toNat = c.val
        rw [h1]; simp
  · rename_i h
    constructor
    · intro hf; cases hf
    · rintro ⟨ht, rfl⟩
      exfalso; apply h; intro a
      match a with
      | ⟨0, _⟩ =>
        show 0 ≤ (rowScatterDims N E C wf).start (ix2 e c) idx (0 : Fin 2)
            + ((rowScatterDims N E C wf).window (ix2 e c) (0 : Fin 2) : ℤ)
          ∧ (rowScatterDims N E C wf).start (ix2 e c) idx (0 : Fin 2)
            + ((rowScatterDims N E C wf).window (ix2 e c) (0 : Fin 2) : ℤ) < ((N : ℕ) : ℤ)
        rw [h0, ht]
        have := p.isLt
        omega
      | ⟨1, _⟩ =>
        show 0 ≤ (rowScatterDims N E C wf).start (ix2 e c) idx (1 : Fin 2)
            + ((rowScatterDims N E C wf).window (ix2 e c) (1 : Fin 2) : ℤ)
          ∧ (rowScatterDims N E C wf).start (ix2 e c) idx (1 : Fin 2)
            + ((rowScatterDims N E C wf).window (ix2 e c) (1 : Fin 2) : ℤ) < ((C : ℕ) : ℤ)
        rw [h1]
        have := c.isLt
        omega

end Scatter

/-- A SCATTER-ADD OF ROWS READ AT `(p, c)`, on the extended reals: the operand's element plus the sum over the edges that
    end in `p` of the update at `(e, c)`. The sum over all update elements that land at `(p, c)` is split by
    coordinates; in row `e` only column `c` can land there, and it does exactly when `e` ends in `p`. -/
theorem scatterAdd_rows_apply {N E C w : Nat} (wf : ScatterDims.WF ⟨2, ![N, C]⟩ ⟨2, ![E, 1]⟩ ⟨2, ![E, C]⟩ [1] [0] [0] 1)
    (idx : IVec ⟨2, ![E, 1]⟩ w) {φ : FTy} (x : FVec Ideal ⟨2, ![N, C]⟩ φ) (upd : FVec Ideal ⟨2, ![E, C]⟩ φ)
    (p : Fin N) (c : Fin C) :
    Host.scatterAdd (F := Ideal) (rowScatterDims N E C wf) x idx upd (ix2 p c)
      = x (ix2 p c) + ∑ e ∈ edgesInto idx p, upd (ix2 e c) := by
  show x (ix2 p c) + ∑ j ∈ Finset.univ.filter (fun j => (rowScatterDims N E C wf).resultIdx? j idx = some (ix2 p c)), upd j = _
  congr 1
  unfold edgesInto
  rw [Finset.sum_filter, Finset.sum_filter, sum_idx2]
  refine Finset.sum_congr rfl fun e _ => ?_
  simp only [resultIdx?_rows_eq_some_iff]
  by_cases ht : (idx (ix2 e 0)).toInt = (p.val : ℤ)
  · simp only [ht, true_and, if_true]
    exact Finset.sum_ite_eq' Finset.univ c (fun b => upd (ix2 e b)) |>.trans (by simp)
  · simp [ht]

/-! ## A matrix product -/

/-- The dimension numbers of the product of an `[N, K]` by a `[K, M]` matrix: the left operand's axis 1 contracted with
    the right operand's axis 0, no batch axes. -/
abbrev rowDotDims (N K M : Nat)
    (wf : DotDims.WF ⟨2, ![N, K]⟩ ⟨2, ![K, M]⟩ ⟨2, ![N, M]⟩ [1] [0] [0] [1] [] []) :
    DotDims ⟨2, ![N, K]⟩ ⟨2, ![K, M]⟩ ⟨2, ![N, M]⟩ where
  lhsContracting := [1]
  rhsContracting := [0]
  lhsNonContracting := [0]
  rhsNonContracting := [1]
  lhsBatch := []
  rhsBatch := []
  wf := wf

section Dot
variable {N K M : Nat} (wf : DotDims.WF ⟨2, ![N, K]⟩ ⟨2, ![K, M]⟩ ⟨2, ![N, M]⟩ [1] [0] [0] [1] [] [])

/-- The left operand is read in the result's row. -/
theorem dot_lhs_row (i : (⟨2, ![N, M]⟩ : Shape).Idx) (q : (rowDotDims N K M wf).contr.Idx) :
    ((rowDotDims N K M wf).lhsIdx i q (0 : Fin 2)).val = (i 0).val := by
  unfold DotDims.lhsIdx
  rw [dif_neg (show (0 : Fin 2) ∉ (rowDotDims N K M wf).lhsBatch from List.not_mem_nil),
    dif_pos (show (0 : Fin 2) ∈ (rowDotDims N K M wf).lhsNonContracting from List.mem_singleton.mpr rfl)]
  rfl

/-- The left operand is read in the column the contraction position names. -/
theorem dot_lhs_col (i : (⟨2, ![N, M]⟩ : Shape).Idx) (q : (rowDotDims N K M wf).contr.Idx) :
    ((rowDotDims N K M wf).lhsIdx i q (1 : Fin 2)).val = (q ⟨0, Nat.one_pos⟩).val :=
  (rowDotDims N K M wf).lhsIdx_val_of_single rfl i q

/-- The right operand is read in the row the contraction position names. -/
theorem dot_rhs_row (i : (⟨2, ![N, M]⟩ : Shape).Idx) (q : (rowDotDims N K M wf).contr.Idx) :
    ((rowDotDims N K M wf).rhsIdx i q (0 : Fin 2)).val = (q ⟨0, Nat.one_pos⟩).val :=
  (rowDotDims N K M wf).rhsIdx_val_of_single rfl i q

/-- The right operand is read in the result's column. -/
theorem dot_rhs_col (i : (⟨2, ![N, M]⟩ : Shape).Idx) (q : (rowDotDims N K M wf).contr.Idx) :
    ((rowDotDims N K M wf).rhsIdx i q (1 : Fin 2)).val = (i 1).val := by
  unfold DotDims.rhsIdx
  rw [dif_neg (show (1 : Fin 2) ∉ (rowDotDims N K M wf).rhsBatch from List.not_mem_nil),
    dif_pos (show (1 : Fin 2) ∈ (rowDotDims N K M wf).rhsNonContracting from List.mem_singleton.mpr rfl)]
  rfl

/-- A MATRIX PRODUCT READ AT `(p, j)`, on the extended reals: the sum over `k` of left `(p, k)` times right `(k, j)`. -/
theorem dotGeneral_rows_apply {φ₁ φ₂ : FTy} (prec : Option ContractPrecision)
    (l : FVec Ideal ⟨2, ![N, K]⟩ φ₁) (r : FVec Ideal ⟨2, ![K, M]⟩ φ₂) (p : Fin N) (j : Fin M) :
    Host.dotGeneral (rowDotDims N K M wf) prec l r (ix2 p j) = ∑ k : Fin K, l (ix2 p k) * r (ix2 k j) := by
  simp only [Host.dotGeneral]
  rw [Ideal.dotGeneral_apply, ← Equiv.sum_comp (contrEquiv1 (rowDotDims N K M wf) K rfl rfl).symm]
  refine Finset.sum_congr rfl fun k _ => ?_
  have hk := contrEquiv1_symm_val (rowDotDims N K M wf) K rfl rfl k
  have el : (rowDotDims N K M wf).lhsIdx (ix2 p j) ((contrEquiv1 (rowDotDims N K M wf) K rfl rfl).symm k) = ix2 p k :=
    funext fun a => Fin.ext (by
      match a with
      | ⟨0, _⟩ => exact dot_lhs_row wf _ _
      | ⟨1, _⟩ => exact (dot_lhs_col wf _ _).trans hk)
  have er : (rowDotDims N K M wf).rhsIdx (ix2 p j) ((contrEquiv1 (rowDotDims N K M wf) K rfl rfl).symm k) = ix2 k j :=
    funext fun a => Fin.ext (by
      match a with
      | ⟨0, _⟩ => exact (dot_rhs_row wf _ _).trans hk
      | ⟨1, _⟩ => exact dot_rhs_col wf _ _)
  rw [el, er]

end Dot

/-! ## Broadcasts -/

section Broadcast
variable {α : Type}

/-- A scalar broadcast to any shape reads the scalar everywhere. -/
theorem bcast_scalar_apply {t : Shape} (h : (⟨0, ![]⟩ : Shape).BroadcastsInDim t (![] : Fin 0 → Fin t.rank))
    (y : (⟨0, ![]⟩ : Shape).Idx → α) (i : t.Idx) : broadcastInDim t ![] h y i = y ix0 :=
  broadcastInDim_apply _ h y i ix0 (fun a => a.elim0)

/-- A vector `[E]` (more than one element, or none) broadcast to a column `[E, 1]` reads element `e` in row `e`. -/
theorem bcast_col_apply {E : Nat} (hE : E ≠ 1)
    (h : (⟨1, ![E]⟩ : Shape).BroadcastsInDim ⟨2, ![E, 1]⟩ (![0] : Fin 1 → Fin 2))
    (y : (⟨1, ![E]⟩ : Shape).Idx → α) (e : Fin E) (z : Fin 1) :
    broadcastInDim ⟨2, ![E, 1]⟩ ![0] h y (ix2 e z) = y (ix1 e) :=
  broadcastInDim_apply _ h y (ix2 e z) (ix1 e) (fun a => match a with
    | ⟨0, _⟩ => by show e.val = if E = 1 then 0 else e.val; rw [if_neg hE])

/-- A column `[E, 1]` broadcast along its unit axis to `[E, C]` reads the column's element of row `e` everywhere in row
    `e`. -/
theorem bcast_row_apply {E C : Nat} (hE : E ≠ 1)
    (h : (⟨2, ![E, 1]⟩ : Shape).BroadcastsInDim ⟨2, ![E, C]⟩ (![0, 1] : Fin 2 → Fin 2))
    (y : (⟨2, ![E, 1]⟩ : Shape).Idx → α) (e : Fin E) (c : Fin C) :
    broadcastInDim ⟨2, ![E, C]⟩ ![0, 1] h y (ix2 e c) = y (ix2 e 0) :=
  broadcastInDim_apply _ h y (ix2 e c) (ix2 e 0) (fun a => match a with
    | ⟨0, _⟩ => by show e.val = if E = 1 then 0 else e.val; rw [if_neg hE]
    | ⟨1, _⟩ => by show 0 = if (1 : Nat) = 1 then 0 else c.val; rw [if_pos rfl])

end Broadcast

end Cert.LibRowGatherScatter

end
-- ==== Proof.LibMatmulRows.lean ====
/-
  A matrix product into a zero accumulator, read at one element.

  The matrix unit's product of an `[N, K]` by a `[K, M]` array, accumulated into the zero array, is at `(p, j)` the sum
  over `k` of left `(p, k)` times right `(k, j)` on the extended reals: no rounding, no order of summation left in it.
  Stated for arbitrary extents over the dimension numbers "contract the left operand's axis 1 with the right operand's
  axis 0, no batch axes".
-/
import proofs.«161877_j65481071409132_1_alg».proof.Proof.LibRowGatherScatter

noncomputable section

open scoped BigOperators

namespace Cert.LibMatmulRows

open Idealize.ShloMosaic Idealize.ShloMosaic.ValueIdx Cert.LibRowGatherScatter

/-- THE PRODUCT INTO ZERO READ AT `(p, j)`: the sum over `k` of left `(p, k)` times right `(k, j)`. -/
theorem matmul_zero_rows_apply {N K M : Nat} (wf : DotDims.WF ⟨2, ![N, K]⟩ ⟨2, ![K, M]⟩ ⟨2, ![N, M]⟩ [1] [0] [0] [1] [] [])
    {φ₁ φ₂ : FTy} (prec : Option ContractPrecision)
    (l : FVec Ideal ⟨2, ![N, K]⟩ φ₁) (r : FVec Ideal ⟨2, ![K, M]⟩ φ₂) (p : Fin N) (j : Fin M) :
    FloatOps.matmul (rowDotDims N K M wf) prec l r (constant ⟨2, ![N, M]⟩ .f32 0x00000000#32) (ix2 p j)
      = ∑ k : Fin K, l (ix2 p k) * r (ix2 k j) := by
  rw [Ideal.matmul_constant_zero_apply, ← Equiv.sum_comp (contrEquiv1 (rowDotDims N K M wf) K rfl rfl).symm]
  refine Finset.sum_congr rfl fun k _ => ?_
  have hk := contrEquiv1_symm_val (rowDotDims N K M wf) K rfl rfl k
  have el : (rowDotDims N K M wf).lhsIdx (ix2 p j) ((contrEquiv1 (rowDotDims N K M wf) K rfl rfl).symm k) = ix2 p k :=
    funext fun a => Fin.ext (by
      match a with
      | ⟨0, _⟩ => exact dot_lhs_row wf _ _
      | ⟨1, _⟩ => exact (dot_lhs_col wf _ _).trans hk)
  have er : (rowDotDims N K M wf).rhsIdx (ix2 p j) ((contrEquiv1 (rowDotDims N K M wf) K rfl rfl).symm k) = ix2 k j :=
    funext fun a => Fin.ext (by
      match a with
      | ⟨0, _⟩ => exact (dot_rhs_row wf _ _).trans hk
      | ⟨1, _⟩ => exact dot_rhs_col wf _ _)
  rw [el, er]

end Cert.LibMatmulRows

end
-- ==== Proof.LibDenseRow.lean ====
/-
  A dense layer read on one row, on the extended reals.

  A layer y = x · W + b applied to a batch of rows acts on each row by itself:

      y(r, j) = (∑ₖ x(r, k) · W(k, j)) + b(j).

  This file states that once, for a rows × columns contraction of any extents, in the two spellings a program can
  give it: a matrix product accumulated into a zero array and then a bias row broadcast down the rows, and a host
  contraction followed by a bias vector broadcast to a row and then down the rows. Both are `affine` of the row, of
  the weights read by coordinates, and of the bias read by its column. Nothing here needs finiteness: only the
  definitions of the operations on the extended reals are opened, no law of arithmetic is used.
-/
import Idealize.ShloMosaic.PureOps.Ideal
import Idealize.ShloMosaic.PureOps.Ideal.Laws
import Idealize.ShloMosaic.Lib.ValueIdx
import Idealize.ShloMosaic.Lib.Pipeline.Value

noncomputable section

open scoped BigOperators

namespace Cert.LibDenseRow

open Idealize.ShloMosaic Idealize.ShloMosaic.ValueIdx

/-- Column `j` of `x · W + b` for one row `x`. -/
def affine {K N : Nat} (x : Fin K → EReal) (W : Fin K → Fin N → EReal) (b : Fin N → EReal) (j : Fin N) : EReal :=
  (∑ k, x k * W k j) + b j

/-- The contraction of a rows × columns product at entry `(p, q)` runs over the one shared axis: it is the sum over
    `k` of the left operand at `(p, k)` times the right operand at `(k, q)`. -/
theorem plain_contraction (M K N : Nat) (l : (⟨2, ![M, K]⟩ : Shape).Idx → EReal) (r : (⟨2, ![K, N]⟩ : Shape).Idx → EReal)
    (p : Fin M) (q : Fin N) :
    ∑ c : (DotDims.plain M K N).contr.Idx,
        l ((DotDims.plain M K N).lhsIdx (ix2 p q) c) * r ((DotDims.plain M K N).rhsIdx (ix2 p q) c)
      = ∑ k : Fin K, l (ix2 p k) * r (ix2 k q) := by
  rw [← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 p q) ((contrEquiv1 (DotDims.plain M K N) K rfl rfl).symm k) = ix2 p k :=
    funext fun a => Fin.ext (by
      match a with
      | ⟨0, _⟩ => rfl
      | ⟨1, _⟩ => exact ((DotDims.plain M K N).lhsIdx_val_of_single rfl (ix2 p q) _).trans hk)
  have er : (DotDims.plain M K N).rhsIdx (ix2 p q) ((contrEquiv1 (DotDims.plain M K N) K rfl rfl).symm k) = ix2 k q :=
    funext fun a => Fin.ext (by
      match a with
      | ⟨0, _⟩ => exact ((DotDims.plain M K N).rhsIdx_val_of_single rfl (ix2 p q) _).trans hk
      | ⟨1, _⟩ => rfl)
  rw [el, er]

/-- A matrix product accumulated into the zero array, at entry `(p, q)`. -/
theorem matmul_zero_apply (M K N : Nat) {φ₁ φ₂ : FTy} (prec : Option ContractPrecision)
    (X : FVec Ideal ⟨2, ![M, K]⟩ φ₁) (W : FVec Ideal ⟨2, ![K, N]⟩ φ₂) (p : Fin M) (q : Fin N) :
    matmul (DotDims.plain M K N) prec X W (constant ⟨2, ![M, N]⟩ .f32 0x00000000#32) (ix2 p q)
      = ∑ k : Fin K, X (ix2 p k) * W (ix2 k q) :=
  (Ideal.matmul_constant_zero_apply (DotDims.plain M K N) prec X W (ix2 p q)).trans (plain_contraction M K N X W p q)

/-- A host contraction, at entry `(p, q)`. -/
theorem dotGeneral_apply (M K N : Nat) {φ₁ φ₂ : FTy} (prec : Option ContractPrecision)
    (X : FVec Ideal ⟨2, ![M, K]⟩ φ₁) (W : FVec Ideal ⟨2, ![K, N]⟩ φ₂) (p : Fin M) (q : Fin N) :
    Host.dotGeneral (DotDims.plain M K N) prec X W (ix2 p q) = ∑ k : Fin K, X (ix2 p k) * W (ix2 k q) :=
  (Ideal.dotGeneral_apply (DotDims.plain M K N) prec .single X W (ix2 p q)).trans (plain_contraction M K N X W p q)

/-- A bias row `[1, N]` broadcast down `M` rows reads its column. -/
theorem biasRow_apply {α : Type} (M N : Nat) (b : (⟨2, ![1, N]⟩ : Shape).Idx → α)
    (h : (⟨2, ![1, N]⟩ : Shape).Broadcasts ⟨2, ![M, N]⟩) (p : Fin M) (q : Fin N) :
    broadcastTo ⟨2, ![M, N]⟩ b h (ix2 p q) = b (ix2 0 q) :=
  broadcastTo_apply b h (ix2 p q) (ix2 0 q) (fun a => by
    match a with
    | ⟨0, _⟩ => rfl
    | ⟨1, _⟩ =>
      show q.val = if N = 1 then 0 else q.val
      split
      · have := q.isLt; omega
      · rfl)

/-- A bias vector `[N]` broadcast to a row `[1, N]` and then down `M` rows reads its entry. -/
theorem biasVec_apply {α : Type} (M N : Nat) (b : (⟨1, ![N]⟩ : Shape).Idx → α)
    (h₁ : (⟨1, ![N]⟩ : Shape).BroadcastsInDim ⟨2, ![1, N]⟩ ![1])
    (h₂ : (⟨2, ![1, N]⟩ : Shape).BroadcastsInDim ⟨2, ![M, N]⟩ ![0, 1]) (p : Fin M) (q : Fin N) :
    broadcastInDim ⟨2, ![M, N]⟩ ![0, 1] h₂ (broadcastInDim ⟨2, ![1, N]⟩ ![1] h₁ b) (ix2 p q) = b (ix1 q) := by
  rw [broadcastInDim_apply ![0, 1] h₂ _ (ix2 p q) (ix2 0 q) (fun a => by
    match a with
    | ⟨0, _⟩ => rfl
    | ⟨1, _⟩ =>
      show q.val = if N = 1 then 0 else q.val
      split
      · have := q.isLt; omega
      · rfl)]
  exact broadcastInDim_apply ![1] h₁ b (ix2 0 q) (ix1 q) (fun a => by
    match a with
    | ⟨0, _⟩ =>
      show q.val = if N = 1 then 0 else q.val
      split
      · have := q.isLt; omega
      · rfl)

end Cert.LibDenseRow

end
-- ==== Proof.KernelPayload.lean ====
/-
  What the kernel body stores, read at one element.

  The body works on a block of 1024 tokens. Row p of the block's result is the perceptron of row p of the block of
  features: the cosine of the ten loaded columns, contracted with the 10 x 1024 first-layer weights (stored input-major
  here), plus the first bias row, rectified, contracted with the 1024 x 1024 second-layer weights (input-major), plus the
  second bias row. The changes of float format on the way into each product are the identity on the extended reals,
  and a product accumulated into the zero array is the plain sum.
-/
import proofs.«161877_j65481071409132_1_alg».proof.Proof.Gen.KernelIdeal.Skeleton
import proofs.«161877_j65481071409132_1_alg».proof.Proof.LibMatmulRows
import proofs.«161877_j65481071409132_1_alg».proof.Proof.LibDenseRow
import Idealize.ShloMosaic.Lib.ValueIdx
import Idealize.ShloMosaic.Lib.Pipeline.Value
import Idealize.ShloMosaic.PureOps.Ideal.Laws

noncomputable section

open scoped BigOperators

namespace Cert.KernelIdeal.Payload

open Cert.KernelIdeal Cert.KernelIdeal.Gen Idealize.ShloMosaic Idealize.ShloMosaic.ValueIdx
open Cert.LibMatmulRows Cert.LibDenseRow Cert.LibRowGatherScatter

/-- The stored block at row p, column e. -/
theorem pay_apply (x0 : Vec Ideal S1024x10 .f32) (x1 : Vec Ideal S10x1024 .f32) (x2 : Vec Ideal S1x1024 .f32)
    (x3 : Vec Ideal S1024x1024 .f32) (x4 : Vec Ideal S1x1024 .f32) (p e : Fin 1024) :
    k0_pay1 (F := Ideal) x0 x1 x2 x3 x4 (ix2 p e)
      = (∑ f : Fin 1024, max ((∑ q : Fin 10, Ideal.cos (x0 (ix2 p q)) * x1 (ix2 q f)) + x2 (ix2 0 f))
            (Ideal.ofBits .f32 0x00000000#32) * x3 (ix2 f e)) + x4 (ix2 0 e) := by
  unfold k0_pay1
  simp only [shapeCast_self]
  show matmul (F := Ideal) _ none _ _ (constant S1024x1024 .f32 0x00000000#32) (ix2 p e)
      + broadcastTo S1024x1024 x4 broadcasts_S1x1024_S1024x1024 (ix2 p e) = _
  rw [biasRow_apply 1024 1024 x4 broadcasts_S1x1024_S1024x1024 p e]
  refine congrArg (· + x4 (ix2 0 e)) ?_
  refine (matmul_zero_rows_apply (N := 1024) (K := 1024) (M := 1024)
    Facts₀.dot_S1024x1024_S1024x1024_S1024x1024_1_0_0_1_n_n_wf none _ _ p e).trans ?_
  refine Finset.sum_congr rfl fun f _ => ?_
  refine congrArg (· * x3 (ix2 f e)) ?_
  show max (matmul (F := Ideal) _ none _ _ (constant S1024x1024 .f32 0x00000000#32) (ix2 p f)
      + broadcastTo S1024x1024 x2 broadcasts_S1x1024_S1024x1024 (ix2 p f)) (Ideal.ofBits .f32 0x00000000#32) = _
  rw [biasRow_apply 1024 1024 x2 broadcasts_S1x1024_S1024x1024 p f]
  refine congrArg (fun z => max (z + x2 (ix2 0 f)) (Ideal.ofBits .f32 0x00000000#32)) ?_
  exact matmul_zero_rows_apply (N := 1024) (K := 10) (M := 1024)
    Facts₀.dot_S1024x10_S10x1024_S1024x1024_1_0_0_1_n_n_wf none _ _ p f

end Cert.KernelIdeal.Payload

end
-- ==== Proof.KernelRows.lean ====
/-
  From the kernel's staged arrays to the perceptron.

  The kernel launches on five staged arrays: the tokens' ten columns laid out as 32768 rows (row b·4096 + s is token
  (b, s)), both weight matrices transposed to input-major, and both bias vectors as one-row matrices. Row r of the
  launch's [32768, 1024] result, as a function of these five arrays, is `rowOut`; a block of 1024 rows of it is what
  the body stores at the grid point that holds those rows (`point_eq`); and read through the layout changes on the way
  in and the reshape to [8, 4096, 1024] on the way out it is the perceptron of MlpSpec (`rows_eq_out`).
-/
import proofs.«161877_j65481071409132_1_alg».proof.Proof.KernelPayload
import proofs.«161877_j65481071409132_1_alg».proof.Proof.MlpSpec

noncomputable section

open scoped BigOperators

namespace Cert.KernelIdeal.Rows

open Cert.KernelIdeal Cert.KernelIdeal.Gen Idealize.ShloMosaic Idealize.ShloMosaic.ValueIdx Cert.KernelIdeal.Payload

/-- Entry (r, e) of the launch's result as a function of the five staged arrays. -/
def rowOut (A1 : S32768x10.Idx → EReal) (A2 : S10x1024.Idx → EReal) (A4 : S1x1024.Idx → EReal)
    (A3 : S1024x1024.Idx → EReal) (A5 : S1x1024.Idx → EReal) (r : Fin 32768) (e : Fin 1024) : EReal :=
  (∑ f : Fin 1024, max ((∑ q : Fin 10, Ideal.cos (A1 (ix2 r q)) * A2 (ix2 q f)) + A4 (ix2 0 f))
      (Ideal.ofBits .f32 0x00000000#32) * A3 (ix2 f e)) + A5 (ix2 0 e)

/-- The launch's whole result. -/
def rowsOut (A1 : S32768x10.Idx → EReal) (A2 : S10x1024.Idx → EReal) (A4 : S1x1024.Idx → EReal)
    (A3 : S1024x1024.Idx → EReal) (A5 : S1x1024.Idx → EReal) : S32768x1024.Idx → EReal :=
  fun j => rowOut A1 A2 A4 A3 A5 (j 0) (j 1)

/-- What the body stores at block coordinate z is entry j of the launch's result, when the body's first operand holds
    the 1024 rows starting at row T·1024, its other operands the whole weight and bias arrays, and j is z moved down
    by T·1024 rows. -/
theorem point_eq (A1 : S32768x10.Idx → EReal) (A2 : S10x1024.Idx → EReal) (A4 : S1x1024.Idx → EReal)
    (A3 : S1024x1024.Idx → EReal) (A5 : S1x1024.Idx → EReal)
    (x0 : Vec Ideal S1024x10 .f32) (x1 : Vec Ideal S10x1024 .f32) (x2 : Vec Ideal S1x1024 .f32)
    (x3 : Vec Ideal S1024x1024 .f32) (x4 : Vec Ideal S1x1024 .f32)
    (T : Nat) (z : S1024x1024.Idx) (j : S32768x1024.Idx)
    (hj0 : (j 0).val = T * 1024 + (z 0).val) (hj1 : (j 1).val = (z 1).val)
    (h0 : ∀ (p : Fin 1024) (q : Fin 10) (r : Fin 32768), r.val = T * 1024 + p.val → x0 (ix2 p q) = A1 (ix2 r q))
    (h1 : x1 = A2) (h2 : x2 = A4) (h3 : x3 = A3) (h4 : x4 = A5) :
    k0_pay1 (F := Ideal) x0 x1 x2 x3 x4 z = rowsOut A1 A2 A4 A3 A5 j := by
  obtain ⟨p, e, rfl⟩ : ∃ (p e : Fin 1024), z = ix2 p e := ⟨z 0, z 1, eq_ix2 z⟩
  obtain ⟨r, e', rfl⟩ : ∃ (r : Fin 32768) (e' : Fin 1024), j = ix2 r e' := ⟨j 0, j 1, eq_ix2 j⟩
  obtain rfl : e' = e := Fin.ext hj1
  subst h1 h2 h3 h4
  rw [pay_apply]
  show _ = rowOut A1 x1 x2 x3 x4 r e'
  unfold rowOut
  simp only [h0 p _ r hj0]

/-! ## The layout changes around the launch, read at an index -/

/-- Token (b, s) is row b·4096 + s. -/
def row (b : Fin 8) (s : Fin 4096) : Fin 32768 := ⟨b.val * 4096 + s.val, by have := b.isLt; have := s.isLt; omega⟩

/-- The first ten columns, reshaped to rows: row (b, s), column q is the input at (b, s, q). -/
theorem tokens_apply (x : S8x4096x1024.Idx → EReal) (hs : S8x4096x1024.Slices ![0, 0, 0] S8x4096x10)
    (hc : S8x4096x10.ShapeCasts S32768x10) (b : Fin 8) (s : Fin 4096) (q : Fin 10) :
    shapeCast S32768x10 (extractStridedSlice S8x4096x10 ![0, 0, 0] x hs) hc (ix2 (row b s) q) = x (ix3 b s (Cert.Mlp.col q)) :=
  (shapeCast_apply _ hc (ix2 (row b s) q) (ix3 b s q) (by
      rw [Shape.rowMajor_val_three, Shape.rowMajor_val_two]
      show (b.val * 4096 + s.val) * 10 + q.val = (b.val * 4096 + s.val) * 10 + q.val
      rfl)).trans
    (extractStridedSlice_apply ![0, 0, 0] x hs (ix3 b s q) (ix3 b s (Cert.Mlp.col q)) (fun a => by
      match a with
      | ⟨0, _⟩ => show b.val = 0 + b.val; omega
      | ⟨1, _⟩ => show s.val = 0 + s.val; omega
      | ⟨2, _⟩ => show q.val = 0 + q.val; omega))

/-- The first-layer weights transposed: (q, f) reads (f, q). -/
theorem w1t_apply (W1 : S1024x10.Idx → EReal) (h : S1024x10.Transposes [1, 0] S10x1024) (q : Fin 10) (f : Fin 1024) :
    transpose S10x1024 [1, 0] W1 h (ix2 q f) = W1 (ix2 f q) :=
  transpose_apply [1, 0] W1 h (ix2 q f) (ix2 f q) (fun b => by
    match b with
    | ⟨0, _⟩ => rfl
    | ⟨1, _⟩ => rfl)

/-- The second-layer weights transposed: (f, e) reads (e, f). -/
theorem w2t_apply (W2 : S1024x1024.Idx → EReal) (h : S1024x1024.Transposes [1, 0] S1024x1024) (f e : Fin 1024) :
    transpose S1024x1024 [1, 0] W2 h (ix2 f e) = W2 (ix2 e f) :=
  transpose_apply [1, 0] W2 h (ix2 f e) (ix2 e f) (fun b => by
    match b with
    | ⟨0, _⟩ => rfl
    | ⟨1, _⟩ => rfl)

/-- A bias vector as a one-row matrix: (0, f) reads entry f. -/
theorem bias_apply (v : S1024.Idx → EReal) (h : S1024.ShapeCasts S1x1024) (f : Fin 1024) :
    shapeCast S1x1024 v h (ix2 0 f) = v (ix1 f) :=
  shapeCast_apply v h (ix2 0 f) (ix1 f) (by
    rw [Shape.rowMajor_val_one, Shape.rowMajor_val_two]
    show f.val = 0 * 1024 + f.val
    omega)

/-- The result reshaped to [8, 4096, 1024]: (b, s, e) reads row (b, s), column e. -/
theorem result_apply (R : S32768x1024.Idx → EReal) (h : S32768x1024.ShapeCasts S8x4096x1024) (b : Fin 8) (s : Fin 4096)
    (e : Fin 1024) : shapeCast S8x4096x1024 R h (ix3 b s e) = R (ix2 (row b s) e) :=
  shapeCast_apply R h (ix3 b s e) (ix2 (row b s) e) (by
    rw [Shape.rowMajor_val_three, Shape.rowMajor_val_two]
    show (b.val * 4096 + s.val) * 1024 + e.val = (b.val * 4096 + s.val) * 1024 + e.val
    rfl)

/-- The launch's result on the staged forms of the arguments, reshaped, is the perceptron of the arguments. -/
theorem rows_eq_out (x : S8x4096x1024.Idx → EReal) (W1 : S1024x10.Idx → EReal) (b1 : S1024.Idx → EReal)
    (W2 : S1024x1024.Idx → EReal) (b2 : S1024.Idx → EReal)
    (hs : S8x4096x1024.Slices ![0, 0, 0] S8x4096x10) (hc : S8x4096x10.ShapeCasts S32768x10)
    (ht1 : S1024x10.Transposes [1, 0] S10x1024) (ht2 : S1024x1024.Transposes [1, 0] S1024x1024)
    (hb : S1024.ShapeCasts S1x1024) (ho : S32768x1024.ShapeCasts S8x4096x1024) :
    shapeCast S8x4096x1024
        (rowsOut (shapeCast S32768x10 (extractStridedSlice S8x4096x10 ![0, 0, 0] x hs) hc) (transpose S10x1024 [1, 0] W1 ht1)
          (shapeCast S1x1024 b1 hb) (transpose S1024x1024 [1, 0] W2 ht2) (shapeCast S1x1024 b2 hb)) ho
      = Cert.Mlp.outArr x W1 b1 W2 b2 := by
  funext i
  obtain ⟨b, s, e, rfl⟩ : ∃ (b : Fin 8) (s : Fin 4096) (e : Fin 1024), i = ix3 b s e := ⟨i 0, i 1, i 2, eq_ix3 i⟩
  rw [result_apply]
  show rowOut _ _ _ _ _ (row b s) e = Cert.Mlp.out x W1 b1 W2 b2 b s e
  unfold rowOut Cert.Mlp.out Cert.Mlp.hidden Cert.Mlp.feature
  simp only [tokens_apply, bias_apply]
  refine congrArg (· + b2 (ix1 e)) (Finset.sum_congr rfl fun f _ => ?_)
  rw [w2t_apply]
  refine congrArg (fun z => max (z + b1 (ix1 f)) (Ideal.ofBits .f32 0x00000000#32) * W2 (ix2 e f))
    (Finset.sum_congr rfl fun q _ => ?_)
  rw [w1t_apply]

end Cert.KernelIdeal.Rows

end
-- ==== Proof.KernelArray.lean ====
/-
  The kernel's result array.

  Before the launch the host lays the arguments out (ten columns sliced and reshaped to 32768 rows, both weight
  matrices transposed, both bias vectors reshaped to one row); the launch runs the body at 32 grid points, point t
  reading rows t·1024 … t·1024 + 1023 of the tokens and the whole weight and bias arrays and writing the same rows of
  the [32768, 1024] result; after the launch the host reshapes the result to [8, 4096, 1024]. So: each staged array
  as a term of the arguments (`entry_*`), each operand block as a piece of its staged array (`iblk*`), what a point
  writes back as a block of `rowsOut` of the staged arrays (`flushed_eq`), the 32 blocks tiling the rows (`cover`), the
  array after the launch (`launched`), the reshape after it (`tail_eq`), and the run with its result named (`run`).
-/
import proofs.«161877_j65481071409132_1_alg».proof.Proof.Gen.KernelIdeal.Frame
import proofs.«161877_j65481071409132_1_alg».proof.Proof.KernelRows
import Idealize.ShloMosaic.Lib.Pipeline.Value
import Idealize.ShloMosaic.Lib.StableHlo.Run
import Idealize.ShloMosaic.Lib.Tactic

noncomputable section

namespace Cert.KernelIdeal.Whole

open Cert.KernelIdeal Cert.KernelIdeal.Gen Idealize.ShloMosaic Idealize.ShloMosaic.TcCoe Idealize.SL.Sem
open Idealize.ShloMosaic.ValueIdx Idealize.ShloMosaic.StableHlo
open Idealize.ShloMosaic.Pipeline (Dat)
open Cert.KernelIdeal.Rows

variable (m : (ℓ : Loc nD τ sig) → Buf (Elt Ideal) ℓ) (ρ : Dev nD → PrngReg)

/-! ## The staged arrays as terms of the arguments -/

theorem entry_v1 (c : Dev nD) : (V m c main_v1 : S32768x10.Idx → EReal)
    = shapeCast S32768x10 (extractStridedSlice S8x4096x10 ![0, 0, 0] (m ((c : Thread nD τ).loc main_arg0))
        slices_S8x4096x1024_S8x4096x10_0_0_0) shapeCasts_S8x4096x10_S32768x10 := by
  show StableHlo.after hostOps0 (fun b => m (c, b)) (Proc.devRef .tc main_v1) = _
  after_results
  rfl

theorem entry_v2 (c : Dev nD) : (V m c main_v2 : S10x1024.Idx → EReal)
    = transpose S10x1024 [1, 0] (m ((c : Thread nD τ).loc main_arg2)) transposes_S1024x10_S10x1024_1_0 := by
  show StableHlo.after hostOps0 (fun b => m (c, b)) (Proc.devRef .tc main_v2) = _
  after_results

theorem entry_v3 (c : Dev nD) : (V m c main_v3 : S1024x1024.Idx → EReal)
    = transpose S1024x1024 [1, 0] (m ((c : Thread nD τ).loc main_arg4)) transposes_S1024x1024_S1024x1024_1_0 := by
  show StableHlo.after hostOps0 (fun b => m (c, b)) (Proc.devRef .tc main_v3) = _
  after_results

theorem entry_v4 (c : Dev nD) : (V m c main_v4 : S1x1024.Idx → EReal)
    = shapeCast S1x1024 (m ((c : Thread nD τ).loc main_arg3)) shapeCasts_S1024_S1x1024 := by
  show StableHlo.after hostOps0 (fun b => m (c, b)) (Proc.devRef .tc main_v4) = _
  after_results
  rfl

theorem entry_v5 (c : Dev nD) : (V m c main_v5 : S1x1024.Idx → EReal)
    = shapeCast S1x1024 (m ((c : Thread nD τ).loc main_arg5)) shapeCasts_S1024_S1x1024 := by
  show StableHlo.after hostOps0 (fun b => m (c, b)) (Proc.devRef .tc main_v5) = _
  after_results
  rfl

/-! ## The blocks -/

/-- The index maps over the grid: the token rows and the result rows move with the point, the weight and bias arrays
    stay at block (0, 0). -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

/-- Row p of the token block at point t is row t·1024 + p of the staged tokens. -/
theorem iblk0_apply (c : Dev nD) (t : Fin cfg0.N) (p : Fin 1024) (q : Fin 10) (r : Fin 32768)
    (hr : r.val = t.val * 1024 + p.val) :
    (iblk m c 0 t : Vec Ideal S1024x10 .f32) (ix2 p q) = (V m c main_v1 : S32768x10.Idx → EReal) (ix2 r q) := by
  have e0 : win0_0.index t (0 : Fin 2) = t.val := (idx_facts t).1
  have e1 : win0_0.index t (1 : Fin 2) = 0 := (idx_facts t).2.1
  unfold iblk
  rw [View.read_apply]
  show V m c main_v1 _ = V m c main_v1 _
  refine congrArg (V m c main_v1) (funext fun a => Fin.ext ?_)
  match a with
  | ⟨0, _⟩ => show win0_0.index t (0 : Fin 2) * 1024 + 1 * p.val = r.val; rw [e0, hr]; omega
  | ⟨1, _⟩ => show win0_0.index t (1 : Fin 2) * 10 + 1 * q.val = q.val; rw [e1]; omega

/-- The first-layer weight block is the whole staged array at every point. -/
theorem iblk1_eq (c : Dev nD) (t : Fin cfg0.N) :
    (iblk m c 1 t : Vec Ideal S10x1024 .f32) = (V m c main_v2 : S10x1024.Idx → EReal) := by
  have e0 : win0_1.index t (0 : Fin 2) = 0 := (idx_facts t).2.2.1
  have e1 : win0_1.index t (1 : Fin 2) = 0 := (idx_facts t).2.2.2.1
  funext y
  unfold iblk
  rw [View.read_apply]
  show V m c main_v2 _ = V m c main_v2 y
  refine congrArg (V m c main_v2) (funext fun a => Fin.ext ?_)
  match a with
  | ⟨0, _⟩ => show win0_1.index t (0 : Fin 2) * 10 + 1 * (y 0).val = (y 0).val; rw [e0]; omega
  | ⟨1, _⟩ => show win0_1.index t (1 : Fin 2) * 1024 + 1 * (y 1).val = (y 1).val; rw [e1]; omega

/-- The first bias block is the whole staged row at every point. -/
theorem iblk2_eq (c : Dev nD) (t : Fin cfg0.N) :
    (iblk m c 2 t : Vec Ideal S1x1024 .f32) = (V m c main_v4 : S1x1024.Idx → EReal) := by
  have e0 : win0_2.index t (0 : Fin 2) = 0 := (idx_facts t).2.2.2.2.1
  have e1 : win0_2.index t (1 : Fin 2) = 0 := (idx_facts t).2.2.2.2.2.1
  funext y
  unfold iblk
  rw [View.read_apply]
  show V m c main_v4 _ = V m c main_v4 y
  refine congrArg (V m c main_v4) (funext fun a => Fin.ext ?_)
  match a with
  | ⟨0, _⟩ => show win0_2.index t (0 : Fin 2) * 1 + 1 * (y 0).val = (y 0).val; rw [e0]; omega
  | ⟨1, _⟩ => show win0_2.index t (1 : Fin 2) * 1024 + 1 * (y 1).val = (y 1).val; rw [e1]; omega

/-- The second-layer weight block is the whole staged array at every point. -/
theorem iblk3_eq (c : Dev nD) (t : Fin cfg0.N) :
    (iblk m c 3 t : Vec Ideal S1024x1024 .f32) = (V m c main_v3 : S1024x1024.Idx → EReal) := by
  have e0 : win0_3.index t (0 : Fin 2) = 0 := (idx_facts t).2.2.2.2.2.2.1
  have e1 : win0_3.index t (1 : Fin 2) = 0 := (idx_facts t).2.2.2.2.2.2.2.1
  funext y
  unfold iblk
  rw [View.read_apply]
  show V m c main_v3 _ = V m c main_v3 y
  refine congrArg (V m c main_v3) (funext fun a => Fin.ext ?_)
  match a with
  | ⟨0, _⟩ => show win0_3.index t (0 : Fin 2) * 1024 + 1 * (y 0).val = (y 0).val; rw [e0]; omega
  | ⟨1, _⟩ => show win0_3.index t (1 : Fin 2) * 1024 + 1 * (y 1).val = (y 1).val; rw [e1]; omega

/-- The second bias block is the whole staged row at every point. -/
theorem iblk4_eq (c : Dev nD) (t : Fin cfg0.N) :
    (iblk m c 4 t : Vec Ideal S1x1024 .f32) = (V m c main_v5 : S1x1024.Idx → EReal) := by
  have e0 : win0_4.index t (0 : Fin 2) = 0 := (idx_facts t).2.2.2.2.2.2.2.2.1
  have e1 : win0_4.index t (1 : Fin 2) = 0 := (idx_facts t).2.2.2.2.2.2.2.2.2.1
  funext y
  unfold iblk
  rw [View.read_apply]
  show V m c main_v5 _ = V m c main_v5 y
  refine congrArg (V m c main_v5) (funext fun a => Fin.ext ?_)
  match a with
  | ⟨0, _⟩ => show win0_4.index t (0 : Fin 2) * 1 + 1 * (y 0).val = (y 0).val; rw [e0]; omega
  | ⟨1, _⟩ => show win0_4.index t (1 : Fin 2) * 1024 + 1 * (y 1).val = (y 1).val; rw [e1]; omega

/-! ## The array after the launch -/

theorem hz : (![0, 0] : Fin 2 → Nat) = fun _ => 0 := funext fun a => by fin_cases a <;> rfl

/-- The launch's result as a function of the staged arrays as the launch finds them. -/
abbrev staged (c : Dev nD) : S32768x1024.Idx → EReal :=
  rowsOut (V m c main_v1) (V m c main_v2) (V m c main_v4) (V m c main_v3) (V m c main_v5)

/-- What point t writes back is block t of `staged`. -/
theorem flushed_eq (c : Dev nD) (t : Fin cfg0.N) :
    (dats m 0 c).flushed 5 t = ((cfg0.win 5).blk t).view.read (Elt Ideal) (staged m c) := by
  have e0 : win0_5.index t (0 : Fin 2) = t.val := (idx_facts t).2.2.2.2.2.2.2.2.2.2.1
  have e1 : win0_5.index t (1 : Fin 2) = 0 := (idx_facts t).2.2.2.2.2.2.2.2.2.2.2
  show (cfg0.win 5).cut (grid0.coords t) ((dats m 0 c).after 5 t) = _
  rw [after0_5]
  unfold out0_5
  rw [View.canon_unit_zero hz]
  simp only [View.ld_unit_zero (S := S1024x10) hz, View.ld_unit_zero (S := S10x1024) hz,
    View.ld_unit_zero (S := S1x1024) hz, View.ld_unit_zero (S := S1024x1024) hz]
  funext y
  rw [View.read_apply]
  exact point_eq (V m c main_v1) (V m c main_v2) (V m c main_v4) (V m c main_v3) (V m c main_v5)
    (iblk m c 0 t) (iblk m c 1 t) (iblk m c 2 t) (iblk m c 3 t) (iblk m c 4 t) t.val
    ((cfg0.win 5).xinj (grid0.coords t) y) (((cfg0.win 5).blk t).view.emb y)
    (by show win0_5.index t (0 : Fin 2) * 1024 + 1 * (y 0).val = t.val * 1024 + (y 0).val; rw [e0]; omega)
    (by show win0_5.index t (1 : Fin 2) * 1024 + 1 * (y 1).val = (y 1).val; rw [e1]; omega)
    (fun p q r hr => iblk0_apply m c t p q r hr) (iblk1_eq m c t) (iblk2_eq m c t) (iblk3_eq m c t) (iblk4_eq m c t)

/-- An index of the result is in point t's block iff each coordinate is in the block's range on its axis. -/
theorem mem_blk (t : Fin cfg0.N) (i : S32768x1024.Idx) :
    i ∈ ((cfg0.win 5).blk t).view.set ↔ ∀ a : Fin 2, win0_5.index t a * S1024x1024.size a ≤ (i a).val
      ∧ (i a).val < win0_5.index t a * S1024x1024.size a + S1024x1024.size a := by
  show i ∈ ((View.whole main_v6).slice (win0_5.rect t)).set ↔ _
  rw [View.set_slice_whole, Rect.mem_set_unit]
  exact Iff.rfl

/-- Row r of the result is in the block of point r / 1024. -/
theorem cover (i : S32768x1024.Idx) :
    ∃ t : Fin cfg0.N, (cfg0.win 5).flush t = true ∧ i ∈ ((cfg0.win 5).blk t).view.set := by
  have hi0 : (i 0).val < 32768 := (i 0).isLt
  have hi1 : (i 1).val < 1024 := (i 1).isLt
  have hN : cfg0.N = 32 := N_0
  have ht : (i 0).val / 1024 < cfg0.N := by rw [hN]; omega
  refine ⟨⟨(i 0).val / 1024, ht⟩, flush0_5 _, ?_⟩
  have e0 : win0_5.index ⟨(i 0).val / 1024, ht⟩ (0 : Fin 2) = (i 0).val / 1024 := (idx_facts _).2.2.2.2.2.2.2.2.2.2.1
  have e1 : win0_5.index ⟨(i 0).val / 1024, ht⟩ (1 : Fin 2) = 0 := (idx_facts _).2.2.2.2.2.2.2.2.2.2.2
  rw [mem_blk]
  intro a
  match a with
  | ⟨0, _⟩ =>
    show win0_5.index ⟨(i 0).val / 1024, ht⟩ (0 : Fin 2) * 1024 ≤ (i 0).val
      ∧ (i 0).val < win0_5.index ⟨(i 0).val / 1024, ht⟩ (0 : Fin 2) * 1024 + 1024
    rw [e0]; omega
  | ⟨1, _⟩ =>
    show win0_5.index ⟨(i 0).val / 1024, ht⟩ (1 : Fin 2) * 1024 ≤ (i 1).val
      ∧ (i 1).val < win0_5.index ⟨(i 0).val / 1024, ht⟩ (1 : Fin 2) * 1024 + 1024
    rw [e1]; omega

/-- The result array after the launch. -/
theorem launched (c : Dev nD) : (dats m 0 c).arrAt 5 cfg0.N = staged m c :=
  (dats m 0 c).arrAt_eq_of_cover 5 (staged m c) (fun t _ => flushed_eq m c t) cover

/-! ## The reshape after the launch, and the run -/

/-- The program's result: the launched array reshaped to [8, 4096, 1024]. -/
theorem tail_eq (c : Dev nD) : Pipeline.afterTail₀ cfgs (dats m) 0 (V0 m) [hostOps1] c main_v7
    = shapeCast S8x4096x1024 (staged m c) shapeCasts_S32768x1024_S8x4096x1024 := by
  unfold Pipeline.afterTail₀
  show StableHlo.after hostOps1 _ (Proc.devRef .tc main_v7) = _
  after_results
  have hw : Pipeline.withArrays (cfgs 0).spec c (V0 m c) (fun w => (dats m 0 c).arrAt w (cfgs 0).N)
      (Proc.devRef .tc main_v6) = staged m c :=
    (Pipeline.withArrays_arr spec0 launch0.win.arr_inj c _ _ 5).trans (launched m c)
  rw [hw]
  rfl

/-- On the arguments, that is the perceptron. -/
theorem result_eq (c : Dev nD) : shapeCast S8x4096x1024 (staged m c) shapeCasts_S32768x1024_S8x4096x1024
    = Cert.Mlp.outArr (m ((c : Thread nD τ).loc main_arg0)) (m ((c : Thread nD τ).loc main_arg2))
        (m ((c : Thread nD τ).loc main_arg3)) (m ((c : Thread nD τ).loc main_arg4)) (m ((c : Thread nD τ).loc main_arg5)) := by
  have e1 := entry_v1 m c
  have e2 := entry_v2 m c
  have e3 := entry_v3 m c
  have e4 := entry_v4 m c
  have e5 := entry_v5 m c
  show shapeCast S8x4096x1024 (rowsOut (V m c main_v1) (V m c main_v2) (V m c main_v4) (V m c main_v3) (V m c main_v5)) _ = _
  rw [e1, e2, e4, e3, e5]
  exact rows_eq_out _ _ _ _ _ _ _ _ _ _ _

/-- The kernel's run, read: the result array at the perceptron of the arguments, the arguments unchanged. -/
theorem run : θ_run defs (onTc (τ := τ) (main (F := Ideal))) ⟨m, fun _ => 0, ρ⟩ fun r => ∀ c : Dev nD,
      r.2.mem ((c : Thread nD τ).loc main_v7)
        = Cert.Mlp.outArr (m ((c : Thread nD τ).loc main_arg0)) (m ((c : Thread nD τ).loc main_arg2))
            (m ((c : Thread nD τ).loc main_arg3)) (m ((c : Thread nD τ).loc main_arg4)) (m ((c : Thread nD τ).loc main_arg5))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun _ h c => ⟨((h c).2 main_v7 (Pipeline.mem_restRefs_of main_v7 (by decide) (by decide))).trans
        ((tail_eq m c).trans (result_eq m c)),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c),
      ((h c).2 main_arg5 (Pipeline.mem_restRefs_of main_arg5 (by decide) (by decide))).trans (W_main_arg5 m (dats m) c)⟩)
    (run_main m ρ)

end Cert.KernelIdeal.Whole

end
-- ==== Proof.lean ====
/-
  The kernel against its reference: a two-layer perceptron on the cosines of each token's first ten columns.

  Both programs compute, for token (b, s) and output e,

      out(b, s, e) = (∑ f < 1024, max((∑ q < 10, cos x(b, s, q) · W1(f, q)) + b1(f), 0) · W2(e, f)) + b2(e)

  (MlpSpec). The reference does so directly (RefValue, over the generated read of its run). The kernel slices the ten
  columns and reshapes the tokens to 32768 rows, transposes both weight matrices, launches 32 grid points of 1024 rows
  each, and reshapes the result back (KernelPayload: the body's stored block at an element; KernelRows: the launch's
  result as a function of the staged arrays, and the layout changes read at an index; KernelArray: the blocks tile the
  rows, the array after the launch, the run). On the extended reals the changes of float format are the identity and
  a product into a zero accumulator is the plain sum, so the two results are the same sums of the same terms: no law of
  arithmetic is needed and the precondition is not used. The rotation angles (the second argument) are read by neither
  program. The frames of the two kernel programs and the run of the reference are generated modules; the ideal pass
  rewrote nothing, so the kernel is its own idealization.
-/
import proofs.«161877_j65481071409132_1_alg».proof.Defs
import proofs.«161877_j65481071409132_1_alg».proof.Proof.Gen.Kernel
import proofs.«161877_j65481071409132_1_alg».proof.Proof.Gen.Kernel.Skeleton
import proofs.«161877_j65481071409132_1_alg».proof.Proof.Gen.Kernel.Launch
import proofs.«161877_j65481071409132_1_alg».proof.Proof.Gen.Kernel.Points
import proofs.«161877_j65481071409132_1_alg».proof.Proof.Gen.Kernel.Frame
import proofs.«161877_j65481071409132_1_alg».proof.Proof.Gen.KernelIdeal
import proofs.«161877_j65481071409132_1_alg».proof.Proof.Gen.KernelIdeal.Skeleton
import proofs.«161877_j65481071409132_1_alg».proof.Proof.Gen.KernelIdeal.Launch
import proofs.«161877_j65481071409132_1_alg».proof.Proof.Gen.KernelIdeal.Points
import proofs.«161877_j65481071409132_1_alg».proof.Proof.Gen.KernelIdeal.Frame
import proofs.«161877_j65481071409132_1_alg».proof.Proof.Gen.ReferenceIdeal
import proofs.«161877_j65481071409132_1_alg».proof.Proof.Gen.Pre_finite_inputs
import proofs.«161877_j65481071409132_1_alg».proof.Proof.Gen.ReferenceIdeal.Run
import proofs.«161877_j65481071409132_1_alg».proof.Proof.Gen.ReferenceIdeal.Read
import proofs.«161877_j65481071409132_1_alg».proof.Proof.RefValue
import proofs.«161877_j65481071409132_1_alg».proof.Proof.KernelArray
import Idealize.ShloMosaic.Adequacy
import Idealize.ShloMosaic.Init

noncomputable section

namespace Cert.Proof

open Idealize.ShloMosaic Idealize.ShloMosaic.TcCoe Idealize.SL.Sem

/-- The word-level kernel runs and leaves its arguments as they were. -/
theorem frame_kernel : Cert.frame_Kernel := fun m ρ _ => Cert.Kernel.Gen.frame m ρ

/-- So does the kernel read on the extended reals. -/
theorem frame_kernelIdeal : Cert.frame_KernelIdeal := fun m ρ _ => Cert.KernelIdeal.Gen.frame m ρ

/-- The reference's frame is its run with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- Both runs end with the result array at the perceptron of the (agreeing) arguments. -/
theorem algebraic : Cert.algebraic_KernelIdeal_ReferenceIdeal := by
  intro m ρ m' ρ' _ hagree
  refine ⟨fun c => Cert.Mlp.outArr (m ((c.tc : Thread Cert.KernelIdeal.nD Cert.KernelIdeal.τ).loc Cert.KernelIdeal.main_arg0)) (m ((c.tc : Thread Cert.KernelIdeal.nD Cert.KernelIdeal.τ).loc Cert.KernelIdeal.main_arg2))
      (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)),
    Cert.KernelIdeal.Whole.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v10_eq, Cert.ReferenceIdeal.RefValue.ref_eq, (hagree c).1, (hagree c).2.2.1,
    (hagree c).2.2.2.1, (hagree c).2.2.2.2.1, (hagree c).2.2.2.2.2]

theorem claim : Cert.Claim := ⟨Cert.Kernel.Gen.facts, Cert.KernelIdeal.Gen.facts, Cert.ReferenceIdeal.Gen.facts, Cert.Pre_finite_inputs.Gen.facts,
  frame_kernel, frame_kernelIdeal, frame_reference, trivial, algebraic⟩

end Cert.Proof

end
